-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x50 : Shape := ⟨2, ![128, 50]⟩
abbrev S50 : Shape := ⟨1, ![50]⟩
abbrev S50x10 : Shape := ⟨2, ![50, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x50 : S_.BroadcastsInDim S128x50 (![] : Fin 0 → Fin S128x50.rank)
  reducesTo_S128x50_S_d0_1 : S128x50.ReducesTo [0, 1] S_
  bcast_S_S50 : S_.BroadcastsInDim S50 (![] : Fin 0 → Fin S50.rank)
  reducesTo_S50_S_d0 : S50.ReducesTo [0] S_
  bcast_S_S50x10 : S_.BroadcastsInDim S50x10 (![] : Fin 0 → Fin S50x10.rank)
  reducesTo_S50x10_S_d0_1 : S50x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S128x50 .f32) (main_arg7 : FVec F S50 .f32) (main_arg8 : FVec F S50x10 .f32) (main_arg9 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x50 .f32 := Host.absf main_arg6
  let main_cst_6 : FVec F S_ .f32 := constant S_ .f32 0x7F800000#32
  let main_v20 : FVec F S128x50 .f32 := broadcastInDim S128x50 ![] bcast_S_S128x50 main_cst_6
  let main_v21 : IVec S128x50 1 := cmpf .olt main_v19 main_v20
  let main_c_7 : IVec S_ 1 := constantI S_ 1 1#1
  let main_v22 : IVec S_ 1 := (fun x v => Host.reduce IntOp.andi x v reducesTo_S128x50_S_d0_1 h_S_) main_v21 main_c_7
  let main_v23 : IVec S_ 1 := andi main_v18 main_v22
  let main_v24 : FVec F S50 .f32 := Host.absf main_arg7
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S50x10 .f32 := Host.absf main_arg8
  let main_cst_10 : FVec F S_ .f32 := constant S_ .f32 0x7F800000#32
  let main_v30 : FVec F S50x10 .f32 := broadcastInDim S50x10 ![] bcast_S_S50x10 main_cst_10
  let main_v31 : IVec S50x10 1 := cmpf .olt main_v29 main_v30
  let main_c_11 : IVec S_ 1 := constantI S_ 1 1#1
  let main_v32 : IVec S_ 1 := (fun x v => Host.reduce IntOp.andi x v reducesTo_S50x10_S_d0_1 h_S_) main_v31 main_c_11
  let main_v33 : IVec S_ 1 := andi main_v28 main_v32
  fn_part2 (F := F) main_arg9 main_v33

def fn {F : FTy → Type} [FloatOps F] (main_arg0 : FVec F S50000x64 .f32) (main_arg1 : IVec S2x800000 32) (main_arg2 : IVec S50000 32) (main_arg3 : FVec F S64x128 .f32) (main_arg4 : FVec F S64x128 .f32) (main_arg5 : FVec F S128 .f32) (main_arg6 : FVec F S128x50 .f32) (main_arg7 : FVec F S50 .f32) (main_arg8 : FVec F S50x10 .f32) (main_arg9 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x50 : Shape := ⟨2, ![128, 50]⟩
abbrev S50 : Shape := ⟨1, ![50]⟩
abbrev S50x10 : Shape := ⟨2, ![50, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S500x128 : Shape := ⟨2, ![500, 128]⟩
abbrev S500x1 : Shape := ⟨2, ![500, 1]⟩
abbrev S1x50 : Shape := ⟨2, ![1, 50]⟩
abbrev S1x10 : Shape := ⟨2, ![1, 10]⟩
abbrev S500x10 : Shape := ⟨2, ![500, 10]⟩
abbrev S500x50 : Shape := ⟨2, ![500, 50]⟩
abbrev S500 : Shape := ⟨1, ![500]⟩

abbrev nBuf : Space → Nat
  | .hbm => 61
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x50, .f32⟩
  | .hbm, ⟨7, _⟩ => ⟨S50, .f32⟩
  | .hbm, ⟨8, _⟩ => ⟨S50x10, .f32⟩
  | .hbm, ⟨9, _⟩ => ⟨S10, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S_, .f32⟩
  | .hbm, ⟨28, _⟩ => ⟨S800000x1, .f32⟩
  | .hbm, ⟨29, _⟩ => ⟨S_, .f32⟩
  | .hbm, ⟨30, _⟩ => ⟨S50000x1, .f32⟩
  | .hbm, ⟨31, _⟩ => ⟨S800000x1, .i32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S1x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S500x128, .f32⟩
  | .hbm, ⟨45, _⟩ => ⟨S50000x1, .i32⟩
  | .hbm, ⟨46, _⟩ => ⟨S500x128, .f32⟩
  | .hbm, ⟨47, _⟩ => ⟨S_, .f32⟩
  | .hbm, ⟨48, _⟩ => ⟨S50000x1, .f32⟩
  | .hbm, ⟨49, _⟩ => ⟨S_, .f32⟩
  | .hbm, ⟨50, _⟩ => ⟨S500x1, .f32⟩
  | .hbm, ⟨51, _⟩ => ⟨S50000x1, .i32⟩
  | .hbm, ⟨52, _⟩ => ⟨S500x1, .f32⟩
  | .hbm, ⟨53, _⟩ => ⟨S_, .f32⟩
  | .hbm, ⟨54, _⟩ => ⟨S500x1, .f32⟩
  | .hbm, ⟨55, _⟩ => ⟨S500x1, .f32⟩
  | .hbm, ⟨56, _⟩ => ⟨S500x128, .f32⟩
  | .hbm, ⟨57, _⟩ => ⟨S500x128, .f32⟩
  | .hbm, ⟨58, _⟩ => ⟨S1x50, .f32⟩
  | .hbm, ⟨59, _⟩ => ⟨S1x10, .f32⟩
  | .hbm, ⟨60, _⟩ => ⟨S500x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S500x128, .f32⟩
  | .local _ .vmem, ⟨10, _⟩ => ⟨S128x50, .f32⟩
  | .local _ .vmem, ⟨11, _⟩ => ⟨S1x50, .f32⟩
  | .local _ .vmem, ⟨12, _⟩ => ⟨S50x10, .f32⟩
  | .local _ .vmem, ⟨13, _⟩ => ⟨S1x10, .f32⟩
  | .local _ .vmem, ⟨14, _⟩ => ⟨S500x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S500x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S50x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S500x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500x1 : S_.BroadcastsInDim S500x1 (![] : Fin 0 → Fin S500x1.rank)
  bcast_S500x1_S500x128_0_1 : S500x1.BroadcastsInDim S500x128 (![0, 1] : Fin 2 → Fin S500x128.rank)
  shapeCasts_S50_S1x50 : S50.ShapeCasts S1x50
  shapeCasts_S10_S1x10 : S10.ShapeCasts S1x10
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S128x50_S128x50_0_0 : ∀ a, (![0, 0] : Fin 2 → Nat) a + S128x50.size a ≤ S128x50.size a
  h_S128x50 : 0 < S128x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S500x50 : S1x50.Broadcasts S500x50
  inb_S50x10_S50x10_0_0 : ∀ a, (![0, 0] : Fin 2 → Nat) a + S50x10.size a ≤ S50x10.size a
  h_S50x10 : 0 < S50x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S500x10 : S1x10.Broadcasts S500x10
  reduces_S500x10_S500 : S500x10.Reduces [1] S500
  shapeCasts_S500_S500x1 : S500.ShapeCasts S500x1
  broadcasts_S500x1_S500x10 : S500x1.Broadcasts S500x10
  inb_S500x10_S500x10_0_0 : ∀ a, (![0, 0] : Fin 2 → Nat) a + S500x10.size a ≤ S500x10.size a
  h_S500x10 : 0 < S500x10.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S5000x64_S64x128_S5000x128_1_0_0_1_n_n_wf : DotDims.WF S5000x64 S64x128 S5000x128 [1] [0] [0] [1] [] []
  scatter_S500x128_S50000x1_S50000x128_1_0_0_1_wf : ScatterDims.WF S500x128 S50000x1 S50000x128 [1] [0] [0] 1
  scatter_S500x1_S50000x1_S50000x1_1_0_0_1_wf : ScatterDims.WF S500x1 S50000x1 S50000x1 [1] [0] [0] 1
  dot_S500x128_S128x50_S500x50_1_0_0_1_n_n_wf : DotDims.WF S500x128 S128x50 S500x50 [1] [0] [0] [1] [] []
  dot_S500x50_S50x10_S500x10_1_0_0_1_n_n_wf : DotDims.WF S500x50 S50x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S500x128.size a ≤ S500x128.size a
  hwx1_0 : ∀ i : grid1.Coords, EltTy.bits .f32 = 32 ∨ (Rect.block (s := S500x128) S500x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x50.size a ≤ S128x50.size a
  hwx1_1 : ∀ i : grid1.Coords, EltTy.bits .f32 = 32 ∨ (Rect.block (s := S128x50) S128x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x50.size a ≤ S1x50.size a
  hwx1_2 : ∀ i : grid1.Coords, EltTy.bits .f32 = 32 ∨ (Rect.block (s := S1x50) S1x50.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x10.size a ≤ S50x10.size a
  hwx1_3 : ∀ i : grid1.Coords, EltTy.bits .f32 = 32 ∨ (Rect.block (s := S50x10) S50x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S500x10.size a ≤ S500x10.size a
  hwx1_5 : ∀ i : grid1.Coords, EltTy.bits .f32 = 32 ∨ (Rect.block (s := S500x10) S500x10.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf
def dot_S500x128_S128x50_S500x50_1_0_0_1_n_n : DotDims S500x128 S128x50 S500x50 where
  lhsContracting := [1]
  rhsContracting := [0]
  lhsNonContracting := [0]
  rhsNonContracting := [1]
  lhsBatch := []
  rhsBatch := []
  wf := dot_S500x128_S128x50_S500x50_1_0_0_1_n_n_wf
def dot_S500x50_S50x10_S500x10_1_0_0_1_n_n : DotDims S500x50 S50x10 S500x10 where
  lhsContracting := [1]
  rhsContracting := [0]
  lhsNonContracting := [0]
  rhsNonContracting := [1]
  lhsBatch := []
  rhsBatch := []
  wf := dot_S500x50_S50x10_S500x10_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S500x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S50x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S500x10.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x50 : Shape := ⟨2, ![128, 50]⟩
abbrev S50 : Shape := ⟨1, ![50]⟩
abbrev S50x10 : Shape := ⟨2, ![50, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S1x128 : Shape := ⟨2, ![1, 128]⟩
abbrev S500x128 : Shape := ⟨2, ![500, 128]⟩
abbrev S500x1 : Shape := ⟨2, ![500, 1]⟩
abbrev S500x50 : Shape := ⟨2, ![500, 50]⟩
abbrev S1x50 : Shape := ⟨2, ![1, 50]⟩
abbrev S500x10 : Shape := ⟨2, ![500, 10]⟩
abbrev S1x10 : Shape := ⟨2, ![1, 10]⟩
abbrev S500 : Shape := ⟨1, ![500]⟩

abbrev nBuf : Space → Nat
  | .hbm => 88
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x50, .f32⟩
  | .hbm, ⟨7, _⟩ => ⟨S50, .f32⟩
  | .hbm, ⟨8, _⟩ => ⟨S50x10, .f32⟩
  | .hbm, ⟨9, _⟩ => ⟨S10, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S_, .f32⟩
  | .hbm, ⟨28, _⟩ => ⟨S800000x1, .f32⟩
  | .hbm, ⟨29, _⟩ => ⟨S_, .f32⟩
  | .hbm, ⟨30, _⟩ => ⟨S50000x1, .f32⟩
  | .hbm, ⟨31, _⟩ => ⟨S800000x1, .i32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S500x128, .f32⟩
  | .hbm, ⟨49, _⟩ => ⟨S50000x1, .i32⟩
  | .hbm, ⟨50, _⟩ => ⟨S500x128, .f32⟩
  | .hbm, ⟨51, _⟩ => ⟨S_, .f32⟩
  | .hbm, ⟨52, _⟩ => ⟨S50000x1, .f32⟩
  | .hbm, ⟨53, _⟩ => ⟨S_, .f32⟩
  | .hbm, ⟨54, _⟩ => ⟨S500x1, .f32⟩
  | .hbm, ⟨55, _⟩ => ⟨S50000x1, .i32⟩
  | .hbm, ⟨56, _⟩ => ⟨S500x1, .f32⟩
  | .hbm, ⟨57, _⟩ => ⟨S_, .f32⟩
  | .hbm, ⟨58, _⟩ => ⟨S500x1, .f32⟩
  | .hbm, ⟨59, _⟩ => ⟨S500x1, .f32⟩
  | .hbm, ⟨60, _⟩ => ⟨S500x128, .f32⟩
  | .hbm, ⟨61, _⟩ => ⟨S500x128, .f32⟩
  | .hbm, ⟨62, _⟩ => ⟨S500x50, .f32⟩
  | .hbm, ⟨63, _⟩ => ⟨S1x50, .f32⟩
  | .hbm, ⟨64, _⟩ => ⟨S500x50, .f32⟩
  | .hbm, ⟨65, _⟩ => ⟨S500x50, .f32⟩
  | .hbm, ⟨66, _⟩ => ⟨S_, .f32⟩
  | .hbm, ⟨67, _⟩ => ⟨S500x50, .f32⟩
  | .hbm, ⟨68, _⟩ => ⟨S500x50, .f32⟩
  | .hbm, ⟨69, _⟩ => ⟨S500x10, .f32⟩
  | .hbm, ⟨70, _⟩ => ⟨S1x10, .f32⟩
  | .hbm, ⟨71, _⟩ => ⟨S500x10, .f32⟩
  | .hbm, ⟨72, _⟩ => ⟨S500x10, .f32⟩
  | .hbm, ⟨73, _⟩ => ⟨S_, .f32⟩
  | .hbm, ⟨74, _⟩ => ⟨S500, .f32⟩
  | .hbm, ⟨75, _⟩ => ⟨S_, .f32⟩
  | .hbm, ⟨76, _⟩ => ⟨S500, .f32⟩
  | .hbm, ⟨77, _⟩ => ⟨S500, .f32⟩
  | .hbm, ⟨78, _⟩ => ⟨S500x1, .f32⟩
  | .hbm, ⟨79, _⟩ => ⟨S500x10, .f32⟩
  | .hbm, ⟨80, _⟩ => ⟨S500x10, .f32⟩
  | .hbm, ⟨81, _⟩ => ⟨S500x10, .f32⟩
  | .hbm, ⟨82, _⟩ => ⟨S_, .f32⟩
  | .hbm, ⟨83, _⟩ => ⟨S500, .f32⟩
  | .hbm, ⟨84, _⟩ => ⟨S500x1, .f32⟩
  | .hbm, ⟨85, _⟩ => ⟨S500x1, .f32⟩
  | .hbm, ⟨86, _⟩ => ⟨S500x10, .f32⟩
  | .hbm, ⟨87, _⟩ => ⟨S500x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call1_cst : Ref sig .tc := ⟨.hbm, 66, rfl⟩
abbrev main_call1_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call2_cst : Ref sig .tc := ⟨.hbm, 73, rfl⟩
abbrev main_call2_v0 : Ref sig .tc := ⟨.hbm, 74, rfl⟩
abbrev main_call2_cst_0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_cst_1 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_v49 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500x1 : S_.BroadcastsInDim S500x1 (![] : Fin 0 → Fin S500x1.rank)
  bcast_S500x1_S500x128_0_1 : S500x1.BroadcastsInDim S500x128 (![0, 1] : Fin 2 → Fin S500x128.rank)
  bcast_S50_S1x50_1 : S50.BroadcastsInDim S1x50 (![1] : Fin 1 → Fin S1x50.rank)
  bcast_S1x50_S500x50_0_1 : S1x50.BroadcastsInDim S500x50 (![0, 1] : Fin 2 → Fin S500x50.rank)
  bcast_S_S500x50 : S_.BroadcastsInDim S500x50 (![] : Fin 0 → Fin S500x50.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  reducesTo_S500x10_S500_d1 : S500x10.ReducesTo [1] S500
  h_S_ : 0 < S_.numel
  bcast_S_S500 : S_.BroadcastsInDim S500 (![] : Fin 0 → Fin S500.rank)
  bcast_S500_S500x1_0 : S500.BroadcastsInDim S500x1 (![0] : Fin 1 → Fin S500x1.rank)
  bcast_S500x1_S500x10_0_1 : S500x1.BroadcastsInDim S500x10 (![0, 1] : Fin 2 → Fin S500x10.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x128_S50000x128_1_0_0_1_n_n_wf : DotDims.WF S50000x64 S64x128 S50000x128 [1] [0] [0] [1] [] []
  scatter_S500x128_S50000x1_S50000x128_1_0_0_1_wf : ScatterDims.WF S500x128 S50000x1 S50000x128 [1] [0] [0] 1
  scatter_S500x1_S50000x1_S50000x1_1_0_0_1_wf : ScatterDims.WF S500x1 S50000x1 S50000x1 [1] [0] [0] 1
  dot_S500x128_S128x50_S500x50_1_0_0_1_n_n_wf : DotDims.WF S500x128 S128x50 S500x50 [1] [0] [0] [1] [] []
  dot_S500x50_S50x10_S500x10_1_0_0_1_n_n_wf : DotDims.WF S500x50 S50x10 S500x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500x1_S50000x1_S50000x1_1_0_0_1 : ScatterDims S500x1 S50000x1 S50000x1 where
  updateWindowDims := [1]
  insertedWindowDims := [0]
  scatterDimsToOperandDims := [0]
  indexVectorDim := 1
  wf := scatter_S500x1_S50000x1_S50000x1_1_0_0_1_wf
def dot_S500x128_S128x50_S500x50_1_0_0_1_n_n : DotDims S500x128 S128x50 S500x50 where
  lhsContracting := [1]
  rhsContracting := [0]
  lhsNonContracting := [0]
  rhsNonContracting := [1]
  lhsBatch := []
  rhsBatch := []
  wf := dot_S500x128_S128x50_S500x50_1_0_0_1_n_n_wf
def dot_S500x50_S50x10_S500x10_1_0_0_1_n_n : DotDims S500x50 S50x10 S500x10 where
  lhsContracting := [1]
  rhsContracting := [0]
  lhsNonContracting := [0]
  rhsNonContracting := [1]
  lhsBatch := []
  rhsBatch := []
  wf := dot_S500x50_S50x10_S500x10_1_0_0_1_n_n_wf

class Facts : Prop extends Facts₀ where

variable [Facts]
-- ==== Proof.KernelRun.lean ====
/-
  The idealized kernel's run with every buffer named.

  The program is four stretches in a row: host operations, the dense-layer kernel over ten row blocks, host
  operations again, the graph-head kernel. Each stretch takes the buffers it finds to the buffers it leaves, and
  the last stretch leaves them at a known valuation (the fold of the four stretches over the launch memory).
  Every weakly fair execution terminates with every unscoped buffer at that valuation; the two results and the
  ten arguments are read off it.
-/
import proofs.«159233_j36137854828757_1_alg».proof.Proof.Gen.KernelIdeal.Frame

set_option maxRecDepth 16384

noncomputable section

namespace Cert.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the
    valuation the four stretches fold to. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The same run with the two results and the ten arguments read off the final valuation. -/
theorem run_named : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v23 (by decide)),
     h c _ (mem_uc main_v39 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩)
    (run_all m ρ)

end Cert.Bridge

end
-- ==== Proof.Terms.lean ====
/-
  The two results as the reference computes them, with the irregular stages left as parameters.

  The node embedding is a dense layer over two inputs: for an aggregate A and the features X (both
  [50000, 64]), weights Wn, Ws ([64, 128]) and a bias b ([128]),
      emb = (A · Wn + X · Ws) + b        (b laid as a row and repeated down the 50000 rows).
  The graph head takes the pooled embeddings P ([500, 128]) through a two-layer perceptron,
      logits = max(P · W1 + b1, 0) · W2 + b2,
  and a row-wise log-softmax: with mx the row maximum (folded from -inf, and joined once more with
  -inf) and sh = logits - mx,
      out = sh - log (sum over the row of exp sh).
  How A is gathered and scattered from the edge list, and how P is pooled from max(emb, 0) by the
  graph ids, is the same text in both programs; those stages stay opaque here.
-/
import proofs.«159233_j36137854828757_1_alg».proof.ReferenceIdeal
import proofs.«159233_j36137854828757_1_alg».proof.Proof.Gen.ReferenceIdeal
import Idealize.ShloMosaic.PureOps.Ideal

noncomputable section

namespace Cert.Bridge

open Cert.ReferenceIdeal Cert.ReferenceIdeal.Facts₀ Cert.ReferenceIdeal.Facts Idealize.ShloMosaic

/-- (A · Wn + X · Ws) + b, the bias laid as a row [1, 128] and repeated down the rows. -/
def embHost (A X : FVec Ideal S50000x64 .f32) (Wn Ws : FVec Ideal S64x128 .f32)
    (b : FVec Ideal S128 .f32) : FVec Ideal S50000x128 .f32 :=
  addf (F := Ideal) (addf (Host.dotGeneral dot_S50000x64_S64x128_S50000x128_1_0_0_1_n_n none A Wn)
      (Host.dotGeneral dot_S50000x64_S64x128_S50000x128_1_0_0_1_n_n none X Ws))
    (broadcastInDim S50000x128 ![0, 1] bcast_S1x128_S50000x128_0_1 (broadcastInDim S1x128 ![1] bcast_S128_S1x128_1 b))

/-- The hidden layer max(P · W1 + b1, 0). -/
def hiddenHost (P : FVec Ideal S500x128 .f32) (W1 : FVec Ideal S128x50 .f32)
    (b1 : FVec Ideal S50 .f32) : FVec Ideal S500x50 .f32 :=
  maximumf (F := Ideal) (addf (Host.dotGeneral dot_S500x128_S128x50_S500x50_1_0_0_1_n_n none P W1)
      (broadcastInDim S500x50 ![0, 1] bcast_S1x50_S500x50_0_1 (broadcastInDim S1x50 ![1] bcast_S50_S1x50_1 b1)))
    (broadcastInDim S500x50 ![] bcast_S_S500x50 (constant S_ .f32 0x00000000#32))

/-- The logits h · W2 + b2. -/
def logitsHost (h : FVec Ideal S500x50 .f32) (W2 : FVec Ideal S50x10 .f32)
    (b2 : FVec Ideal S10 .f32) : FVec Ideal S500x10 .f32 :=
  addf (F := Ideal) (Host.dotGeneral dot_S500x50_S50x10_S500x10_1_0_0_1_n_n none h W2)
    (broadcastInDim S500x10 ![0, 1] bcast_S1x10_S500x10_0_1 (broadcastInDim S1x10 ![1] bcast_S10_S1x10_1 b2))

/-- logits minus the row maximum (the maximum folded from -inf and joined once more with -inf). -/
def shiftedHost (z : FVec Ideal S500x10 .f32) : FVec Ideal S500x10 .f32 :=
  subf (F := Ideal) z (broadcastInDim S500x10 ![0, 1] bcast_S500x1_S500x10_0_1 (broadcastInDim S500x1 ![0] bcast_S500_S500x1_0
    (maximumf (broadcastInDim S500 ![] bcast_S_S500 (constant S_ .f32 0xFF800000#32))
      (Host.reduce FloatOps.maximumf z (constant S_ .f32 0xFF800000#32) reducesTo_S500x10_S500_d1 h_S_))))

/-- sh minus the logarithm of the row sum of exp sh. -/
def logNormHost (sh : FVec Ideal S500x10 .f32) : FVec Ideal S500x10 .f32 :=
  subf (F := Ideal) sh (broadcastInDim S500x10 ![0, 1] bcast_S500x1_S500x10_0_1 (Host.log (broadcastInDim S500x1 ![0] bcast_S500_S500x1_0
    (Host.reduceAdd (Host.exp sh) (constant S_ .f32 0x00000000#32) reducesTo_S500x10_S500_d1 h_S_))))

/-- The graph head: perceptron, then row-wise log-softmax. -/
def headHost (P : FVec Ideal S500x128 .f32) (W1 : FVec Ideal S128x50 .f32)
    (b1 : FVec Ideal S50 .f32) (W2 : FVec Ideal S50x10 .f32)
    (b2 : FVec Ideal S10 .f32) : FVec Ideal S500x10 .f32 :=
  logNormHost (shiftedHost (logitsHost (hiddenHost P W1 b1) W2 b2))

end Cert.Bridge

end
-- ==== Proof.RefSide.lean ====
/-
  The reference's two results are the dense layer and the graph head of its own intermediate stages:
  unfolding the reference's stages one operation at a time gives exactly those two compositions.
-/
import proofs.«159233_j36137854828757_1_alg».proof.Proof.Terms
import proofs.«159233_j36137854828757_1_alg».proof.Proof.Gen.ReferenceIdeal.Read

noncomputable section

namespace Cert.Bridge

open Cert.ReferenceIdeal Cert.ReferenceIdeal.Read Idealize.ShloMosaic

/-- The reference's embedding is the dense layer of its aggregate. -/
theorem emb_ref (x0 : (⟨S50000x64, .f32⟩ : BufTy).Contents (Elt Ideal)) (x1 : (⟨S2x800000, .i32⟩ : BufTy).Contents (Elt Ideal))
    (x3 x4 : (⟨S64x128, .f32⟩ : BufTy).Contents (Elt Ideal)) (x5 : (⟨S128, .f32⟩ : BufTy).Contents (Elt Ideal)) :
    embHost (val_main_v21 (F := Ideal) x0 x1) x0 x3 x4 x5 = val_main_v27 (F := Ideal) x0 x1 x3 x4 x5 := rfl

/-- The reference's log-probabilities are the graph head of its pooled embeddings. -/
theorem head_ref (x0 : (⟨S50000x64, .f32⟩ : BufTy).Contents (Elt Ideal)) (x1 : (⟨S2x800000, .i32⟩ : BufTy).Contents (Elt Ideal))
    (x2 : (⟨S50000, .i32⟩ : BufTy).Contents (Elt Ideal))
    (x3 x4 : (⟨S64x128, .f32⟩ : BufTy).Contents (Elt Ideal)) (x5 : (⟨S128, .f32⟩ : BufTy).Contents (Elt Ideal))
    (x6 : (⟨S128x50, .f32⟩ : BufTy).Contents (Elt Ideal)) (x7 : (⟨S50, .f32⟩ : BufTy).Contents (Elt Ideal))
    (x8 : (⟨S50x10, .f32⟩ : BufTy).Contents (Elt Ideal)) (x9 : (⟨S10, .f32⟩ : BufTy).Contents (Elt Ideal)) :
    headHost (val_main_v39 (F := Ideal) x0 x1 x2 x3 x4 x5) x6 x7 x8 x9
      = val_main_v49 (F := Ideal) x0 x1 x2 x3 x4 x5 x6 x7 x8 x9 := rfl

end Cert.Bridge

end
-- ==== Proof.LibDenseRows.lean ====
/-
  A dense layer over the extended reals, read at an index.

  For a row-major matrix product x · W with x : [M, K] and W : [K, N] (the plain dimension numbers: the
  left operand contracted on its last axis, the right on its first), accumulated into a zero matrix, the
  entry (p, j) is the finite sum over e of x(p, e) · W(e, j). Adding a bias given as a one-row matrix
  b : [1, N] broadcast down the M rows adds b(0, j). A rectifier written as the maximum with a zero splat,
  followed by a change of float format (the identity on the extended reals), is max(v, 0) entry by entry.
  Nothing here needs the entries to be finite: the extended reals' sum of finitely many terms is defined
  whatever the terms are.
-/
import Idealize.ShloMosaic.PureOps.Ideal.Laws
import Idealize.ShloMosaic.Lib.ValueIdx
import Idealize.ShloMosaic.Lib.ValueLayout

noncomputable section

namespace Cert.LibDenseRows

open Idealize.ShloMosaic Idealize.ShloMosaic.ValueIdx

variable {M K N : ℕ} {φ₁ φ₂ : FTy}

/-- The product x · W into the zero matrix, at (p, j): the sum over the shared axis of x(p, e) · W(e, j). -/
theorem matmul_plain_zero_apply (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (p : Fin M) (j : Fin N) :
    FloatOps.matmul D prec x W (constant (F := Ideal) ⟨2, ![M, N]⟩ .f32 0x00000000#32) (ix2 p j)
      = ∑ e : Fin K, x (ix2 p e) * W (ix2 e j) := by
  subst hD
  rw [Ideal.matmul_constant_zero_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 p j) ((contrEquiv1 (DotDims.plain M K N) K rfl rfl).symm e) = ix2 p e :=
    funext fun a => Fin.ext (by
      match a with
      | ⟨0, _⟩ => rfl
      | ⟨1, _⟩ => exact ((DotDims.plain M K N).lhsIdx_val_of_single rfl _ _).trans he)
  have er : (DotDims.plain M K N).rhsIdx (ix2 p j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => rfl)
  rw [el, er]

/-- x · W + b with the bias a one-row matrix broadcast down the rows, at (p, j). -/
theorem dense_apply (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (p : Fin M) (j : Fin N) :
    addf (FloatOps.matmul D prec x W (constant (F := Ideal) ⟨2, ![M, N]⟩ .f32 0x00000000#32))
        (broadcastTo ⟨2, ![M, N]⟩ b hb) (ix2 p j)
      = (∑ e : Fin K, x (ix2 p e) * W (ix2 e j)) + b (ix2 (0 : Fin 1) j) := by
  rw [addf_apply, matmul_plain_zero_apply D hD, broadcastTo_1b_ab_apply]

/-- The rectifier max(v, 0) followed by a narrowing of the float format, entry by entry. -/
theorem relu_narrow_apply {s : Shape} {ψ : FTy} (v : FVec Ideal s .f32) (h : ψ.bits < (FTy.f32).bits) (i : s.Idx) :
    (truncf ψ (maximumf v (broadcast s (Scalar.ofBits (F := Ideal) .f32 0x00000000#32))) h : FVec Ideal s ψ) i
      = max (v i) (Ideal.ofBits .f32 0x00000000#32) := rfl

end Cert.LibDenseRows

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.EmbRegion.lean ====
/-
  The node embedding as the combine kernel leaves it in its result array.

  The kernel walks a grid of 10 points. At point t it holds rows 5000 t … 5000 t + 4999 of the aggregate A and
  of the features X (both [50000, 64]), the whole weights Wn, Ws ([64, 128]) and the bias as a one-row matrix
  ([1, 128]), and writes back, to the same rows of the result, (A_blk · Wn + X_blk · Ws) + the bias row repeated
  down the 5000 rows. Entry (r, j) of that block is
      (∑ k, A(5000 t + r, k) · Wn(k, j) + ∑ k, X(5000 t + r, k) · Ws(k, j)) + b(j),
  which is entry (5000 t + r, j) of the reference's (A · Wn + X · Ws) + b: the same finite sums of the same
  terms in the same order, so nothing has to be finite. Row i of the result lies in the block of point
  i / 5000, so the ten blocks fill the array, and the result array ends as the reference's embedding.
-/
import proofs.«159233_j36137854828757_1_alg».proof.Proof.Terms
import proofs.«159233_j36137854828757_1_alg».proof.Proof.Gen.KernelIdeal.Frame
import proofs.«159233_j36137854828757_1_alg».proof.Proof.LibDenseRows
import proofs.«159233_j36137854828757_1_alg».proof.Proof.LibPlainMatmul
import Idealize.ShloMosaic.Lib.Pipeline.Value
import Idealize.ShloMosaic.Lib.ValueIdx
import Idealize.ShloMosaic.Lib.ValueLayout

set_option maxRecDepth 16384

noncomputable section
namespace Cert.Bridge
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.KernelIdeal.Facts
open scoped BigOperators

/-- The zero offsets, as a constant function. -/
theorem hz2 : (![0, 0] : Fin 2 → Nat) = fun _ => 0 := funext fun a => by fin_cases a <;> rfl

/-- The block's payload at (r, j). -/
theorem pay_apply (x0 x1 : Vec Ideal S5000x64 .f32) (x2 x3 : Vec Ideal S64x128 .f32) (x4 : Vec Ideal S1x128 .f32)
    (r : Fin 5000) (j : Fin 128) :
    k0_pay1 (F := Ideal) x0 x2 x1 x3 x4 (ix2 r j)
      = ((∑ k : Fin 64, x0 (ix2 r k) * x2 (ix2 k j)) + ∑ k : Fin 64, x1 (ix2 r k) * x3 (ix2 k j)) + x4 (ix2 (0 : Fin 1) j) := by
  unfold k0_pay1
  simp only [shapeCast_self]
  rw [addf_apply, addf_apply]
  rw [show (matmul dot_S5000x64_S64x128_S5000x128_1_0_0_1_n_n none x0 x2 (constant S5000x128 .f32 0x00000000#32) : FVec Ideal S5000x128 .f32) (ix2 r j)
        = ∑ k : Fin 64, x0 (ix2 r k) * x2 (ix2 k j) from
      Cert.LibDenseRows.matmul_plain_zero_apply (M := 5000) (K := 64) (N := 128) _ rfl none x0 x2 r j]
  rw [show (matmul dot_S5000x64_S64x128_S5000x128_1_0_0_1_n_n none x1 x3 (constant S5000x128 .f32 0x00000000#32) : FVec Ideal S5000x128 .f32) (ix2 r j)
        = ∑ k : Fin 64, x1 (ix2 r k) * x3 (ix2 k j) from
      Cert.LibDenseRows.matmul_plain_zero_apply (M := 5000) (K := 64) (N := 128) _ rfl none x1 x3 r j]
  rw [broadcastTo_1b_ab_apply (a := 5000) (b := 128) x4 _ r j]

/-- The reference's embedding at (i, j). -/
theorem embHost_apply (A X : FVec Ideal S50000x64 .f32) (Wn Ws : FVec Ideal S64x128 .f32) (b : FVec Ideal S128 .f32)
    (i : Fin 50000) (j : Fin 128) :
    embHost A X Wn Ws b (ix2 i j)
      = ((∑ k : Fin 64, A (ix2 i k) * Wn (ix2 k j)) + ∑ k : Fin 64, X (ix2 i k) * Ws (ix2 k j)) + b (ix1 j) := by
  unfold embHost
  rw [addf_apply, addf_apply]
  rw [show Host.dotGeneral Cert.ReferenceIdeal.dot_S50000x64_S64x128_S50000x128_1_0_0_1_n_n none A Wn (ix2 i j)
        = ∑ k : Fin 64, A (ix2 i k) * Wn (ix2 k j) from
      Cert.PlainMatmul.dotGeneral_apply (M := 50000) (K := 64) (N := 128) none A Wn i j]
  rw [show Host.dotGeneral Cert.ReferenceIdeal.dot_S50000x64_S64x128_S50000x128_1_0_0_1_n_n none X Ws (ix2 i j)
        = ∑ k : Fin 64, X (ix2 i k) * Ws (ix2 k j) from
      Cert.PlainMatmul.dotGeneral_apply (M := 50000) (K := 64) (N := 128) none X Ws i j]
  rw [broadcastInDim_apply _ _ _ (ix2 i j) (ix2 (0 : Fin 1) j) (fun a => by
    match a with
    | ⟨0, _⟩ => rfl
    | ⟨1, _⟩ => rfl)]
  rw [broadcastInDim_apply _ _ _ (ix2 (0 : Fin 1) j) (ix1 j) (fun a => by
    match a with
    | ⟨0, _⟩ => rfl)]

/-- The grid's index maps: the two row blocks and the result's move with the point along the rows; the weights and the
    bias row stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b)) (c : Dev nD)

/-- The aggregate's block at point t is rows 5000 t … 5000 t + 4999 of the aggregate. -/
theorem iblk_A_apply (t : Fin cfg0.N) (r : Fin 5000) (k : Fin 64) (i : Fin 50000) (hi : i.val = t.val * 5000 + r.val) :
    (iblk0 (F := Ideal) V c 0 t : Vec Ideal S5000x64 .f32) (ix2 r k) = (V c main_v21 : FVec Ideal S50000x64 .f32) (ix2 i k) := by
  obtain ⟨e00, e01, -⟩ := idx_facts t
  unfold iblk0
  rw [View.read_apply]
  show V c main_v21 _ = V c main_v21 _
  congr 1
  funext a
  apply Fin.ext
  match a with
  | ⟨0, _⟩ => show win0_0.index t 0 * 5000 + 1 * r.val = i.val; rw [e00, hi]; omega
  | ⟨1, _⟩ => show win0_0.index t 1 * 64 + 1 * k.val = k.val; rw [e01]; omega

/-- The features' block at point t is the same rows of the features. -/
theorem iblk_X_apply (t : Fin cfg0.N) (r : Fin 5000) (k : Fin 64) (i : Fin 50000) (hi : i.val = t.val * 5000 + r.val) :
    (iblk0 (F := Ideal) V c 1 t : Vec Ideal S5000x64 .f32) (ix2 r k) = (V c main_arg0 : FVec Ideal S50000x64 .f32) (ix2 i k) := by
  obtain ⟨-, -, e10, e11, -⟩ := idx_facts t
  unfold iblk0
  rw [View.read_apply]
  show V c main_arg0 _ = V c main_arg0 _
  congr 1
  funext a
  apply Fin.ext
  match a with
  | ⟨0, _⟩ => show win0_1.index t 0 * 5000 + 1 * r.val = i.val; rw [e10, hi]; omega
  | ⟨1, _⟩ => show win0_1.index t 1 * 64 + 1 * k.val = k.val; rw [e11]; omega

/-- The neighbour weights' block is the whole matrix at every point. -/
theorem iblk_Wn_apply (t : Fin cfg0.N) (k : Fin 64) (j : Fin 128) :
    (iblk0 (F := Ideal) V c 2 t : Vec Ideal S64x128 .f32) (ix2 k j) = (V c main_arg3 : FVec Ideal S64x128 .f32) (ix2 k j) := by
  obtain ⟨-, -, -, -, e20, e21, -⟩ := idx_facts t
  unfold iblk0
  rw [View.read_apply]
  show V c main_arg3 _ = V c main_arg3 _
  congr 1
  funext a
  apply Fin.ext
  match a with
  | ⟨0, _⟩ => show win0_2.index t 0 * 64 + 1 * k.val = k.val; rw [e20]; omega
  | ⟨1, _⟩ => show win0_2.index t 1 * 128 + 1 * j.val = j.val; rw [e21]; omega

/-- The self weights' block is the whole matrix at every point. -/
theorem iblk_Ws_apply (t : Fin cfg0.N) (k : Fin 64) (j : Fin 128) :
    (iblk0 (F := Ideal) V c 3 t : Vec Ideal S64x128 .f32) (ix2 k j) = (V c main_arg4 : FVec Ideal S64x128 .f32) (ix2 k j) := by
  obtain ⟨-, -, -, -, -, -, e30, e31, -⟩ := idx_facts t
  unfold iblk0
  rw [View.read_apply]
  show V c main_arg4 _ = V c main_arg4 _
  congr 1
  funext a
  apply Fin.ext
  match a with
  | ⟨0, _⟩ => show win0_3.index t 0 * 64 + 1 * k.val = k.val; rw [e30]; omega
  | ⟨1, _⟩ => show win0_3.index t 1 * 128 + 1 * j.val = j.val; rw [e31]; omega

/-- The bias row's block is the whole row at every point. -/
theorem iblk_b_apply (t : Fin cfg0.N) (j : Fin 128) :
    (iblk0 (F := Ideal) V c 4 t : Vec Ideal S1x128 .f32) (ix2 (0 : Fin 1) j) = (V c main_v22 : FVec Ideal S1x128 .f32) (ix2 (0 : Fin 1) j) := by
  obtain ⟨-, -, -, -, -, -, -, -, e40, e41, -⟩ := idx_facts t
  unfold iblk0
  rw [View.read_apply]
  show V c main_v22 _ = V c main_v22 _
  congr 1
  funext a
  apply Fin.ext
  match a with
  | ⟨0, _⟩ => show win0_4.index t 0 * 1 + 1 * 0 = 0; rw [e40]
  | ⟨1, _⟩ => show win0_4.index t 1 * 128 + 1 * j.val = j.val; rw [e41]; omega

/-- The bias laid as a one-row matrix reads, at (0, j), the bias at j. -/
theorem bias_row_apply (b : FVec Ideal S128 .f32) (j : Fin 128) :
    shapeCast S1x128 b Facts₀.shapeCasts_S128_S1x128 (ix2 (0 : Fin 1) j) = b (ix1 j) :=
  shapeCast_apply b _ (ix2 (0 : Fin 1) j) (ix1 j) (by
    rw [Shape.rowMajor_val_one, Shape.rowMajor_val_two]
    show j.val = 0 * 128 + j.val
    omega)

/-- What point t writes back is the rows of the reference's embedding that its block names: entry by entry the
    payload's two sums and bias term are the embedding's at row 5000 t + r. -/
theorem flushed_eq (b : FVec Ideal S128 .f32)
    (hb : (V c main_v22 : FVec Ideal S1x128 .f32) = shapeCast S1x128 b Facts₀.shapeCasts_S128_S1x128) (t : Fin cfg0.N) :
    (dat0 (F := Ideal) V c).flushed 5 t
      = ((cfg0.win 5).blk t).view.read (Elt Ideal) (embHost (V c main_v21) (V c main_arg0) (V c main_arg3) (V c main_arg4) b) := by
  show (cfg0.win 5).cut (grid0.coords t) ((dat0 (F := Ideal) V c).after 5 t) = _
  rw [after0_5]
  unfold out0_5
  rw [View.canon_unit_zero hz2]
  simp only [View.ld_unit_zero (S := S5000x64) hz2, View.ld_unit_zero (S := S64x128) hz2, View.ld_unit_zero (S := S1x128) hz2]
  funext x
  have hx0 : (x 0).val < 5000 := (x 0).isLt
  have hx1 : (x 1).val < 128 := (x 1).isLt
  have ht : t.val < 10 := (show t.val < grid0.N from t.isLt).trans_eq N_0
  obtain ⟨-, -, -, -, -, -, -, -, -, -, e50, e51⟩ := idx_facts t
  have hxi : (cfg0.win 5).xinj (grid0.coords t) x = (ix2 (⟨(x 0).val, hx0⟩ : Fin 5000) (⟨(x 1).val, hx1⟩ : Fin 128) : S5000x128.Idx) :=
    funext fun a => by match a with | ⟨0, _⟩ => rfl | ⟨1, _⟩ => rfl
  have hemb : ((cfg0.win 5).blk t).view.emb x
      = (ix2 (⟨t.val * 5000 + (x 0).val, by omega⟩ : Fin 50000) (⟨(x 1).val, hx1⟩ : Fin 128) : S50000x128.Idx) :=
    funext fun a => Fin.ext (by
      match a with
      | ⟨0, _⟩ => show win0_5.index t 0 * 5000 + 1 * (x 0).val = t.val * 5000 + (x 0).val; rw [e50]; omega
      | ⟨1, _⟩ => show win0_5.index t 1 * 128 + 1 * (x 1).val = (x 1).val; rw [e51]; omega)
  show k0_pay1 (F := Ideal) (iblk0 V c 0 t) (iblk0 V c 2 t) (iblk0 V c 1 t) (iblk0 V c 3 t) (iblk0 V c 4 t) ((cfg0.win 5).xinj (grid0.coords t) x)
      = embHost (V c main_v21) (V c main_arg0) (V c main_arg3) (V c main_arg4) b (((cfg0.win 5).blk t).view.emb x)
  rw [hxi, hemb, pay_apply, embHost_apply]
  refine congr (congrArg _ (congr (congrArg _ ?_) ?_)) ?_
  · refine Finset.sum_congr rfl fun k _ => ?_
    rw [iblk_A_apply V c t ⟨(x 0).val, hx0⟩ k ⟨t.val * 5000 + (x 0).val, by omega⟩ rfl, iblk_Wn_apply]
  · refine Finset.sum_congr rfl fun k _ => ?_
    rw [iblk_X_apply V c t ⟨(x 0).val, hx0⟩ k ⟨t.val * 5000 + (x 0).val, by omega⟩ rfl, iblk_Ws_apply]
  · rw [iblk_b_apply, hb, bias_row_apply]

/-- Row i of the result lies in the block of point i / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show _ < grid0.N; omega⟩, rfl⟩
  refine ⟨t, flush0_5 t, ?_⟩
  obtain ⟨-, -, -, -, -, -, -, -, -, -, e50, e51⟩ := idx_facts t
  show i ∈ ((View.whole main_v23).slice (win0_5.rect t)).set
  rw [View.set_slice_whole, Rect.mem_set_unit]
  intro a
  match a with
  | ⟨0, _⟩ =>
    show win0_5.index t 0 * 5000 ≤ (i 0).val ∧ (i 0).val < win0_5.index t 0 * 5000 + 5000
    rw [e50, ht]; omega
  | ⟨1, _⟩ =>
    show win0_5.index t 1 * 128 ≤ (i 1).val ∧ (i 1).val < win0_5.index t 1 * 128 + 128
    rw [e51]; omega

/-- The ten blocks fill the result, so the result array ends as the reference's embedding of the region's inputs. -/
theorem emb_region (b : FVec Ideal S128 .f32)
    (hb : (V c main_v22 : FVec Ideal S1x128 .f32) = shapeCast S1x128 b Facts₀.shapeCasts_S128_S1x128) :
    ((dat0 (F := Ideal) V c).arrAt 5 cfg0.N : FVec Ideal S50000x128 .f32)
      = embHost (V c main_v21) (V c main_arg0) (V c main_arg3) (V c main_arg4) b :=
  (dat0 (F := Ideal) V c).arrAt_eq_of_cover 5 (embHost (V c main_v21) (V c main_arg0) (V c main_arg3) (V c main_arg4) b)
    (fun t _ => flushed_eq V c b hb t) cover

end Cert.Bridge
end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.HeadRegion.lean ====
/-
  The graph head on its one grid point.

  The head kernel runs at a single grid point, and every one of its six windows is a whole array: the pooled
  embeddings P ([500, 128]), the weights W1 ([128, 50]) and W2 ([50, 10]), the two biases as one-row matrices
  ([1, 50] and [1, 10]), and the result ([500, 10]).  So the block a window reads at that point is the array itself,
  the one store through the whole-array rectangle leaves the body's value, and the one write-back covers the result
  array: after the run the result array is the body's value of the five input arrays.

  That value is the reference's head, operation for operation:
      h      = max(P · W1 + b1, 0)
      logits = h · W2 + b2
      sh     = logits - max(-inf, row maximum of logits)
      out    = sh - log (row sum of exp sh).
  A product accumulated into a zero splat is the product with no accumulator (0 + x = x); a one-row matrix repeated
  down the rows, and a column repeated along the rows, read the same entry whether written as a broadcast to a larger
  shape or as a broadcast in named dimensions; a vector cast to a row or a column is its broadcast along the other
  axis; a splat of a scalar is the broadcast of the rank-0 constant; a row's maximum is the fold of max over the row
  from the starting value on both sides; a row's sum from a zero starting value is the sum; exp and log are the same
  functions of the extended reals on both sides.  The biases reach the kernel as one-row casts of the vectors b1, b2
  the reference broadcasts, which is the statement's two hypotheses.
-/
import proofs.«159233_j36137854828757_1_alg».proof.Proof.Terms
import proofs.«159233_j36137854828757_1_alg».proof.Proof.Gen.KernelIdeal.Frame
import proofs.«159233_j36137854828757_1_alg».proof.Proof.LibRowReduce
import Idealize.ShloMosaic.Lib.KernelVsHost

noncomputable section
namespace Cert.Bridge.Head
open Idealize.ShloMosaic Idealize.ShloMosaic.TcCoe Idealize.SL.Sem Idealize.ShloMosaic.ValueIdx
open Cert.KernelIdeal Cert.KernelIdeal.Gen Cert.KernelIdeal.Facts₀ Cert.KernelIdeal.Facts

/-! ## Layout steps: a vector as a row or a column, repeated across a matrix -/

section Layout
variable {α : Type}

/-- A vector of `b` entries cast to the one-row matrix `[1, b]` is the vector broadcast along axis 1. -/
theorem row_cast_eq {b : ℕ} (x : (⟨1, ![b]⟩ : Shape).Idx → α)
    (h1 : (⟨1, ![b]⟩ : Shape).ShapeCasts ⟨2, ![1, b]⟩)
    (hd : (⟨1, ![b]⟩ : Shape).BroadcastsInDim ⟨2, ![1, b]⟩ ![1]) :
    shapeCast ⟨2, ![1, b]⟩ x h1 = broadcastInDim ⟨2, ![1, b]⟩ ![1] hd x := by
  funext i
  obtain ⟨u, q, rfl⟩ : ∃ (u : Fin 1) (q : Fin b), i = ix2 u q := ⟨i 0, i 1, eq_ix2 i⟩
  have hu : u.val = 0 := by omega
  have e2 := shapeCast_apply x h1 (ix2 u q) (ix1 q) (by
    rw [Shape.rowMajor_val_two, Shape.rowMajor_val_one]; show q.val = u.val * b + q.val; rw [hu]; omega)
  have e3 := broadcastInDim_apply ![1] hd x (ix2 u q) (ix1 q) (by
    intro ax
    match ax with
    | ⟨0, _⟩ =>
      show q.val = if b = 1 then 0 else q.val
      split
      · have := q.isLt; omega
      · rfl)
  exact e2.trans e3.symm

/-- A one-row matrix repeated down `a` rows: the kernel's broadcast is the host's broadcast in dimensions (0, 1). -/
theorem row_repeat_eq {a b : ℕ} (v : (⟨2, ![1, b]⟩ : Shape).Idx → α)
    (hb : (⟨2, ![1, b]⟩ : Shape).Broadcasts ⟨2, ![a, b]⟩)
    (hd : (⟨2, ![1, b]⟩ : Shape).BroadcastsInDim ⟨2, ![a, b]⟩ ![0, 1]) :
    broadcastTo ⟨2, ![a, b]⟩ v hb = broadcastInDim ⟨2, ![a, b]⟩ ![0, 1] hd v := by
  funext i
  obtain ⟨g, q, rfl⟩ : ∃ (g : Fin a) (q : Fin b), i = ix2 g q := ⟨i 0, i 1, eq_ix2 i⟩
  have e1 := broadcastTo_apply v hb (ix2 g q) (ix2 (0 : Fin 1) q) (by
    intro ax
    match ax with
    | ⟨0, _⟩ => rfl
    | ⟨1, _⟩ =>
      show q.val = if b = 1 then 0 else q.val
      split
      · have := q.isLt; omega
      · rfl)
  exact e1.trans (broadcastInDim_oneRow_apply hd v g q).symm

/-- A vector of `a` entries cast to the column `[a, 1]` is the vector broadcast along axis 0. -/
theorem column_cast_eq {a : ℕ} (x : (⟨1, ![a]⟩ : Shape).Idx → α)
    (hc : (⟨1, ![a]⟩ : Shape).ShapeCasts ⟨2, ![a, 1]⟩)
    (hd : (⟨1, ![a]⟩ : Shape).BroadcastsInDim ⟨2, ![a, 1]⟩ ![0]) :
    shapeCast ⟨2, ![a, 1]⟩ x hc = broadcastInDim ⟨2, ![a, 1]⟩ ![0] hd x := by
  funext i
  obtain ⟨g, u, rfl⟩ : ∃ (g : Fin a) (u : Fin 1), i = ix2 g u := ⟨i 0, i 1, eq_ix2 i⟩
  have e3 := broadcastInDim_apply ![0] hd x (ix2 g u) (ix1 g) (by
    intro ax
    match ax with
    | ⟨0, _⟩ =>
      show g.val = if a = 1 then 0 else g.val
      split
      · have := g.isLt; omega
      · rfl)
  exact (Cert.RowReduce.shapeCast_a_a1_apply x hc g u).trans e3.symm

/-- A column repeated along `b` columns: the kernel's broadcast is the host's broadcast in dimensions (0, 1). -/
theorem column_repeat_eq {a b : ℕ} (v : (⟨2, ![a, 1]⟩ : Shape).Idx → α)
    (hb : (⟨2, ![a, 1]⟩ : Shape).Broadcasts ⟨2, ![a, b]⟩)
    (hd : (⟨2, ![a, 1]⟩ : Shape).BroadcastsInDim ⟨2, ![a, b]⟩ ![0, 1]) :
    broadcastTo ⟨2, ![a, b]⟩ v hb = broadcastInDim ⟨2, ![a, b]⟩ ![0, 1] hd v := by
  funext i
  obtain ⟨g, q, rfl⟩ : ∃ (g : Fin a) (q : Fin b), i = ix2 g q := ⟨i 0, i 1, eq_ix2 i⟩
  have e3 := broadcastInDim_apply ![0, 1] hd v (ix2 g q) (ix2 g (0 : Fin 1)) (by
    intro ax
    match ax with
    | ⟨0, _⟩ =>
      show g.val = if a = 1 then 0 else g.val
      split
      · have := g.isLt; omega
      · rfl
    | ⟨1, _⟩ => rfl)
  exact (Cert.RowReduce.broadcastTo_a1_ab_apply v hb g q).trans e3.symm

end Layout

/-! ## A row's maximum -/

/-- The kernel's maximum along the rows, folded from its accumulator word, is the host's reduction with `max` from an
    initial value that is that word. -/
theorem rowMax_eq {a b : ℕ} {φ : FTy} {u : Shape} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (init : u.Idx → Ideal φ) (h' : (⟨2, ![a, b]⟩ : Shape).ReducesTo [1] ⟨1, ![a]⟩) (hu : 0 < u.numel)
    (h0 : init (Shape.Idx.first hu) = Ideal.ofBits φ acc) :
    multiReduction .maximumf [1] ⟨1, ![a]⟩ X acc h hφ hacc
      = Host.reduce (FloatOps.maximumf (F := Ideal) (φ := φ)) X init h' hu := by
  funext j
  obtain ⟨i, rfl⟩ : ∃ i : Fin a, j = ix1 i := ⟨j 0, eq_ix1 j⟩
  have e : (X ∘ h.lift (ix1 i)) = fun k => X (ix2 i k) :=
    funext fun k => congrArg X (Cert.RowReduce.lift_row h i k)
  rw [Cert.RowReduce.multiReduction_maximumf_row,
    Host.reduce_eq_fold_single (FloatOps.maximumf (F := Ideal) (φ := φ)) X init h' h hu, h0, e]
  rfl

/-! ## The head's payload, stage by stage: each kernel stage is the reference's -/

section Stages

/-- The hidden layer: the matrix-unit product into the zero splat plus the bias row, joined with the zero splat. -/
theorem hidden_stage (P : FVec Ideal S500x128 .f32) (W1 : FVec Ideal S128x50 .f32) (b1 : FVec Ideal S50 .f32) :
    maximumf (F := Ideal)
        (addf (matmul dot_S500x128_S128x50_S500x50_1_0_0_1_n_n none (shapeCast S500x128 P Facts₀.shapeCasts_S500x128_S500x128) W1
            (constant S500x50 .f32 0x00000000#32))
          (broadcastTo S500x50 (shapeCast S1x50 (shapeCast S1x50 b1 Facts₀.shapeCasts_S50_S1x50) Facts₀.shapeCasts_S1x50_S1x50)
            Facts₀.broadcasts_S1x50_S500x50))
        (broadcast S500x50 (Scalar.ofBits .f32 0x00000000#32))
      = hiddenHost P W1 b1 := by
  unfold hiddenHost
  rw [shapeCast_self, shapeCast_self, matmul_zero_eq_dotGeneral,
    row_cast_eq b1 Facts₀.shapeCasts_S50_S1x50 Cert.ReferenceIdeal.Facts₀.bcast_S50_S1x50_1,
    row_repeat_eq _ Facts₀.broadcasts_S1x50_S500x50 Cert.ReferenceIdeal.Facts₀.bcast_S1x50_S500x50_0_1,
    ← broadcastInDim_constant (F := Ideal) _ Cert.ReferenceIdeal.Facts₀.bcast_S_S500x50]
  rfl

/-- The logits: the second product into the zero splat plus the bias row. -/
theorem logits_stage (h : FVec Ideal S500x50 .f32) (W2 : FVec Ideal S50x10 .f32) (b2 : FVec Ideal S10 .f32) :
    addf (F := Ideal) (matmul dot_S500x50_S50x10_S500x10_1_0_0_1_n_n none h W2 (constant S500x10 .f32 0x00000000#32))
        (broadcastTo S500x10 (shapeCast S1x10 (shapeCast S1x10 b2 Facts₀.shapeCasts_S10_S1x10) Facts₀.shapeCasts_S1x10_S1x10)
          Facts₀.broadcasts_S1x10_S500x10)
      = logitsHost h W2 b2 := by
  unfold logitsHost
  rw [shapeCast_self, matmul_zero_eq_dotGeneral,
    row_cast_eq b2 Facts₀.shapeCasts_S10_S1x10 Cert.ReferenceIdeal.Facts₀.bcast_S10_S1x10_1,
    row_repeat_eq _ Facts₀.broadcasts_S1x10_S500x10 Cert.ReferenceIdeal.Facts₀.bcast_S1x10_S500x10_0_1]
  rfl

/-- The shift: the logits minus the row maximum, kept as a column and repeated along the rows. -/
theorem shifted_stage (z : FVec Ideal S500x10 .f32) :
    subf (F := Ideal) z
        (broadcastTo S500x10
          (shapeCast S500x1
            (maximumf (broadcast S500 (Scalar.ofBits .f32 0xFF800000#32))
              (multiReduction .maximumf [1] S500 z 0xFF800000#32 Facts₀.reduces_S500x10_S500 (.inl rfl) rfl))
            Facts₀.shapeCasts_S500_S500x1)
          Facts₀.broadcasts_S500x1_S500x10)
      = shiftedHost z := by
  unfold shiftedHost
  rw [column_cast_eq _ Facts₀.shapeCasts_S500_S500x1 Cert.ReferenceIdeal.Facts₀.bcast_S500_S500x1_0,
    column_repeat_eq _ Facts₀.broadcasts_S500x1_S500x10 Cert.ReferenceIdeal.Facts₀.bcast_S500x1_S500x10_0_1,
    ← broadcastInDim_constant (F := Ideal) _ Cert.ReferenceIdeal.Facts₀.bcast_S_S500,
    rowMax_eq z 0xFF800000#32 Facts₀.reduces_S500x10_S500 (.inl rfl) rfl
      (constant (F := Ideal) Cert.ReferenceIdeal.S_ .f32 0xFF800000#32)
      Cert.ReferenceIdeal.Facts₀.reducesTo_S500x10_S500_d1 Cert.ReferenceIdeal.Facts₀.h_S_ rfl]

/-- The normalisation: the shifted logits minus the logarithm of the row sum of their exponentials. -/
theorem logNorm_stage (sh : FVec Ideal S500x10 .f32) :
    subf (F := Ideal) sh
        (broadcastTo S500x10
          (log (shapeCast S500x1
            (multiReduction .add [1] S500 (exp sh) 0x00000000#32 Facts₀.reduces_S500x10_S500 (.inl rfl) rfl)
            Facts₀.shapeCasts_S500_S500x1))
          Facts₀.broadcasts_S500x1_S500x10)
      = logNormHost sh := by
  unfold logNormHost
  rw [column_cast_eq _ Facts₀.shapeCasts_S500_S500x1 Cert.ReferenceIdeal.Facts₀.bcast_S500_S500x1_0,
    column_repeat_eq _ Facts₀.broadcasts_S500x1_S500x10 Cert.ReferenceIdeal.Facts₀.bcast_S500x1_S500x10_0_1,
    multiReduction_add_eq_hostReduceAdd (exp sh) 0x00000000#32 Facts₀.reduces_S500x10_S500 (.inl rfl) rfl
      (constant (F := Ideal) Cert.ReferenceIdeal.S_ .f32 0x00000000#32)
      Cert.ReferenceIdeal.Facts₀.reducesTo_S500x10_S500_d1 Cert.ReferenceIdeal.Facts₀.h_S_ Ideal.ofBits_zero_f32]
  rfl

end Stages

/-! ## The one grid point: every window's block is its whole array -/

section OnePoint

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The index maps, decided over the grid: every window's block index is 0 on both axes. -/
theorem idx_zero : ∀ t : Fin cfg1.N,
    (∀ a, win1_0.index t a = 0) ∧ (∀ a, win1_1.index t a = 0) ∧ (∀ a, win1_2.index t a = 0)
      ∧ (∀ a, win1_3.index t a = 0) ∧ (∀ a, win1_4.index t a = 0) ∧ (∀ a, win1_5.index t a = 0) :=
  (by decide +kernel : ∀ t : Fin grid1.N, _)

/-- The pooled embeddings' block is the whole array. -/
theorem iblk1_0_eq (t : Fin cfg1.N) : (iblk1 (F := Ideal) V c 0 t : Vec Ideal S500x128 .f32) = V c main_v36 := by
  have hz' : (fun a => win1_0.index t a * main_v36.ty.shape.size a) = fun _ => 0 :=
    funext fun a => by rw [(idx_zero t).1 a, Nat.zero_mul]
  exact Memref.read_access_unit_zero (Elt Ideal) main_v36 hz' (fun a => by rw [congrFun hz' a]; simp) (V c main_v36)

/-- The first weights' block is the whole array. -/
theorem iblk1_1_eq (t : Fin cfg1.N) : (iblk1 (F := Ideal) V c 1 t : Vec Ideal S128x50 .f32) = V c main_arg6 := by
  have hz' : (fun a => win1_1.index t a * main_arg6.ty.shape.size a) = fun _ => 0 :=
    funext fun a => by rw [(idx_zero t).2.1 a, Nat.zero_mul]
  exact Memref.read_access_unit_zero (Elt Ideal) main_arg6 hz' (fun a => by rw [congrFun hz' a]; simp) (V c main_arg6)

/-- The first bias row's block is the whole array. -/
theorem iblk1_2_eq (t : Fin cfg1.N) : (iblk1 (F := Ideal) V c 2 t : Vec Ideal S1x50 .f32) = V c main_v37 := by
  have hz' : (fun a => win1_2.index t a * main_v37.ty.shape.size a) = fun _ => 0 :=
    funext fun a => by rw [(idx_zero t).2.2.1 a, Nat.zero_mul]
  exact Memref.read_access_unit_zero (Elt Ideal) main_v37 hz' (fun a => by rw [congrFun hz' a]; simp) (V c main_v37)

/-- The second weights' block is the whole array. -/
theorem iblk1_3_eq (t : Fin cfg1.N) : (iblk1 (F := Ideal) V c 3 t : Vec Ideal S50x10 .f32) = V c main_arg8 := by
  have hz' : (fun a => win1_3.index t a * main_arg8.ty.shape.size a) = fun _ => 0 :=
    funext fun a => by rw [(idx_zero t).2.2.2.1 a, Nat.zero_mul]
  exact Memref.read_access_unit_zero (Elt Ideal) main_arg8 hz' (fun a => by rw [congrFun hz' a]; simp) (V c main_arg8)

/-- The second bias row's block is the whole array. -/
theorem iblk1_4_eq (t : Fin cfg1.N) : (iblk1 (F := Ideal) V c 4 t : Vec Ideal S1x10 .f32) = V c main_v38 := by
  have hz' : (fun a => win1_4.index t a * main_v38.ty.shape.size a) = fun _ => 0 :=
    funext fun a => by rw [(idx_zero t).2.2.2.2.1 a, Nat.zero_mul]
  exact Memref.read_access_unit_zero (Elt Ideal) main_v38 hz' (fun a => by rw [congrFun hz' a]; simp) (V c main_v38)

/-- What the body leaves in the output window: its one store through the whole-array rectangle leaves the payload of the
    loaded blocks, each load through the whole-array rectangle the block itself. -/
theorem out1_5_eq (x0 : Vec Ideal S500x128 .f32) (x1 : Vec Ideal S128x50 .f32) (x2 : Vec Ideal S1x50 .f32)
    (x3 : Vec Ideal S50x10 .f32) (x4 : Vec Ideal S1x10 .f32) :
    out1_5 (F := Ideal) x0 x1 x2 x3 x4 = k1_pay1 x0 x1 x2 x3 x4 := by
  unfold out1_5
  rw [View.canon_unit_zero hz]
  rw [View.ld_unit_zero (S := S500x128) hz, View.ld_unit_zero (S := S128x50) hz, View.ld_unit_zero (S := S1x50) hz,
    View.ld_unit_zero (S := S50x10) hz, View.ld_unit_zero (S := S1x10) hz]

/-- WHAT THE ONE POINT WRITES BACK is the payload of the five whole arrays, read through the output's block, which is
    the whole array too. -/
theorem flushed1_5_eq (t : Fin cfg1.N) :
    (dat1 (F := Ideal) V c).flushed 5 t
      = ((cfg1.win 5).blk t).view.read (Elt Ideal)
          (k1_pay1 (F := Ideal) (V c main_v36) (V c main_arg6) (V c main_v37) (V c main_arg8) (V c main_v38)) := by
  show (cfg1.win 5).cut (grid1.coords t) ((dat1 V c).after 5 t) = _
  rw [after1_5, iblk1_0_eq, iblk1_1_eq, iblk1_2_eq, iblk1_3_eq, iblk1_4_eq, out1_5_eq]
  have hz' : (fun a => win1_5.index t a * main_v39.ty.shape.size a) = fun _ => 0 :=
    funext fun a => by rw [(idx_zero t).2.2.2.2.2 a, Nat.zero_mul]
  exact (Memref.read_access_unit_zero (Elt Ideal) main_v39 hz' (fun a => by rw [congrFun hz' a]; simp) _).symm

/-- THE ARRAY AFTER THE RUN: the one point's block covers it, so it ends holding the payload of the five arrays. -/
theorem head_array :
    ((dat1 (F := Ideal) V c).arrAt 5 cfg1.N : FVec Ideal S500x10 .f32)
      = k1_pay1 (F := Ideal) (V c main_v36) (V c main_arg6) (V c main_v37) (V c main_arg8) (V c main_v38) :=
  (dat1 (F := Ideal) V c).arrAt_eq_of_cover 5 _ (fun t _ => flushed1_5_eq V c t) fun i =>
    ⟨t1_0, flush1_5 t1_0, by
      show i ∈ ((View.whole main_v39).slice (win1_5.rect t1_0)).set
      rw [View.set_slice_whole, Rect.mem_set_unit]
      intro a
      have h0 : (i 0 : Nat) < 500 := (i 0).isLt
      have h1 : (i 1 : Nat) < 10 := (i 1).isLt
      match a with
      | ⟨0, _⟩ =>
        show win1_5.index t1_0 0 * win1_5.size 0 ≤ (i 0 : Nat)
          ∧ (i 0 : Nat) < win1_5.index t1_0 0 * win1_5.size 0 + win1_5.xsize (grid1.coords t1_0) 0
        rw [show win1_5.index t1_0 0 * win1_5.size 0 = 0 from by decide +kernel,
          show win1_5.xsize (grid1.coords t1_0) 0 = 500 from by decide +kernel]
        omega
      | ⟨1, _⟩ =>
        show win1_5.index t1_0 1 * win1_5.size 1 ≤ (i 1 : Nat)
          ∧ (i 1 : Nat) < win1_5.index t1_0 1 * win1_5.size 1 + win1_5.xsize (grid1.coords t1_0) 1
        rw [show win1_5.index t1_0 1 * win1_5.size 1 = 0 from by decide +kernel,
          show win1_5.xsize (grid1.coords t1_0) 1 = 10 from by decide +kernel]
        omega⟩

end OnePoint

end Cert.Bridge.Head

namespace Cert.Bridge
open Idealize.ShloMosaic Idealize.ShloMosaic.TcCoe Idealize.SL.Sem
open Cert.KernelIdeal Cert.KernelIdeal.Gen Cert.KernelIdeal.Facts₀ Cert.KernelIdeal.Facts

/-- THE PAYLOAD IS THE REFERENCE'S HEAD: on whole arrays, with the two biases handed over as one-row casts. -/
theorem head_payload (P : FVec Ideal S500x128 .f32) (W1 : FVec Ideal S128x50 .f32) (b1 : FVec Ideal S50 .f32)
    (W2 : FVec Ideal S50x10 .f32) (b2 : FVec Ideal S10 .f32) :
    k1_pay1 (F := Ideal) P W1 (shapeCast S1x50 b1 Facts₀.shapeCasts_S50_S1x50) W2
        (shapeCast S1x10 b2 Facts₀.shapeCasts_S10_S1x10)
      = headHost P W1 b1 W2 b2 := by
  unfold k1_pay1 headHost
  rw [← Head.logNorm_stage, ← Head.shifted_stage, ← Head.logits_stage, ← Head.hidden_stage]

/-- THE HEAD REGION: after the one-point pipeline the output array holds the reference's head of the pooled embeddings,
    the two weight matrices and the two biases, the biases having reached the kernel as one-row casts. -/
theorem head_region (V : (c : Dev nD) → (b : Ref sig .tc) → Buf (Elt Ideal) ((c : Thread nD τ).loc b)) (c : Dev nD)
    (b1 : FVec Ideal S50 .f32) (b2 : FVec Ideal S10 .f32)
    (h1 : (V c main_v37 : FVec Ideal S1x50 .f32) = shapeCast S1x50 b1 Facts₀.shapeCasts_S50_S1x50)
    (h2 : (V c main_v38 : FVec Ideal S1x10 .f32) = shapeCast S1x10 b2 Facts₀.shapeCasts_S10_S1x10) :
    ((dat1 (F := Ideal) V c).arrAt 5 cfg1.N : FVec Ideal S500x10 .f32)
      = headHost (V c main_v36) (V c main_arg6) b1 (V c main_arg8) b2 := by
  rw [Head.head_array, h1, h2, head_payload]

end Cert.Bridge
end
-- ==== Proof.HostSide.lean ====
/-
  The buffers the two kernels find and leave, through the two stretches of host operations.

  Before the dense-layer kernel the host gathers and scatter-adds the neighbour features into the aggregate A,
  divides by the clipped degree, and lays the bias as a row. These are the reference's own operations on the same
  arguments, so the kernel is launched on the reference's aggregate; its ten row blocks then leave the
  reference's embedding. Between the kernels the host pools max(emb, 0) over the graphs — again the reference's
  operations, now applied to the reference's embedding — and lays the head's two biases as rows; the head kernel
  then leaves the reference's log-probabilities. Arguments that no operation writes are read back as launched.
-/
import proofs.«159233_j36137854828757_1_alg».proof.Proof.Terms
import proofs.«159233_j36137854828757_1_alg».proof.Proof.RefSide
import proofs.«159233_j36137854828757_1_alg».proof.Proof.Gen.KernelIdeal.Frame
import proofs.«159233_j36137854828757_1_alg».proof.Proof.Gen.ReferenceIdeal.Read
import proofs.«159233_j36137854828757_1_alg».proof.Proof.EmbRegion
import proofs.«159233_j36137854828757_1_alg».proof.Proof.HeadRegion

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## What the dense-layer kernel finds: the buffers after the first stretch of host operations -/

set_option maxHeartbeats 8000000 in
/-- The aggregate the kernel is launched on is the reference's aggregate of the same features and edge list. -/
theorem entry_agg : (V1 m ρ c main_v21 : FVec Ideal S50000x64 .f32)
    = Cert.ReferenceIdeal.Read.val_main_v21 (F := Ideal) (m ((c.tc : Thread nD τ).loc main_arg0)) (m ((c.tc : Thread nD τ).loc main_arg1)) := by
  show StableHlo.after hostOps0 (W0 m ρ c) (Proc.devRef .tc main_v21) = _
  after_results_simp
  rfl

theorem entry_arg0 : V1 m ρ c main_arg0 = m ((c.tc : Thread nD τ).loc main_arg0) := by
  show StableHlo.after hostOps0 (W0 m ρ c) (Proc.devRef .tc main_arg0) = _
  after_results

theorem entry_arg3 : V1 m ρ c main_arg3 = m ((c.tc : Thread nD τ).loc main_arg3) := by
  show StableHlo.after hostOps0 (W0 m ρ c) (Proc.devRef .tc main_arg3) = _
  after_results

theorem entry_arg4 : V1 m ρ c main_arg4 = m ((c.tc : Thread nD τ).loc main_arg4) := by
  show StableHlo.after hostOps0 (W0 m ρ c) (Proc.devRef .tc main_arg4) = _
  after_results

/-- The bias reaches the kernel laid as a row [1, 128]. -/
theorem entry_bias : (V1 m ρ c main_v22 : FVec Ideal S1x128 .f32)
    = shapeCast S1x128 (m ((c.tc : Thread nD τ).loc main_arg5)) Facts₀.shapeCasts_S128_S1x128 := by
  show StableHlo.after hostOps0 (W0 m ρ c) (Proc.devRef .tc main_v22) = _
  after_results
  rfl

/-! ## What the dense-layer kernel leaves -/

/-- The embedding buffer after the ten row blocks: the reference's embedding of the same arguments. -/
theorem emb_value : (W2 m ρ c (Proc.devRef .tc main_v23) : FVec Ideal S50000x128 .f32)
    = Cert.ReferenceIdeal.Read.val_main_v27 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W2_arr m ρ c 5).trans ((emb_region (V1 m ρ) c _ (entry_bias m ρ c)).trans ?_)
  rw [entry_agg m ρ c, entry_arg0 m ρ c, entry_arg3 m ρ c, entry_arg4 m ρ c]
  exact emb_ref _ _ _ _ _

/-- A buffer that is no window of the dense-layer kernel and that the first stretch does not write is as launched. -/
theorem mid_arg2 : W2 m ρ c (Proc.devRef .tc main_arg2) = m ((c.tc : Thread nD τ).loc main_arg2) :=
  (W2_of_ne m ρ c main_arg2 (by decide)).trans (by
    show StableHlo.after hostOps0 (W0 m ρ c) (Proc.devRef .tc main_arg2) = _
    after_results)
theorem mid_arg6 : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results)
theorem mid_arg7 : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results)
theorem mid_arg8 : W2 m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results)
theorem mid_arg9 : W2 m ρ c (Proc.devRef .tc main_arg9) = m ((c.tc : Thread nD τ).loc main_arg9) :=
  (W2_of_ne m ρ c main_arg9 (by decide)).trans (by
    show StableHlo.after hostOps0 (W0 m ρ c) (Proc.devRef .tc main_arg9) = _
    after_results)

/-! ## What the graph-head kernel finds: the buffers after the second stretch of host operations -/

set_option maxHeartbeats 8000000 in
/-- The pooled embeddings the kernel is launched on are the reference's: the same pooling of max(emb, 0) by the
    same graph ids, and emb is the reference's. -/
theorem exit_pool : (V3 m ρ c main_v36 : FVec Ideal S500x128 .f32)
    = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps1 (W2 m ρ c) (Proc.devRef .tc main_v36) = _
  after_results_simp
  rw [emb_value m ρ c, mid_arg2 m ρ c]
  rfl

theorem exit_arg6 : V3 m ρ c main_arg6 = m ((c.tc : Thread nD τ).loc main_arg6) := by
  show StableHlo.after hostOps1 (W2 m ρ c) (Proc.devRef .tc main_arg6) = _
  after_results
  exact mid_arg6 m ρ c

theorem exit_arg8 : V3 m ρ c main_arg8 = m ((c.tc : Thread nD τ).loc main_arg8) := by
  show StableHlo.after hostOps1 (W2 m ρ c) (Proc.devRef .tc main_arg8) = _
  after_results
  exact mid_arg8 m ρ c

/-- The two biases of the head reach the kernel laid as rows [1, 50] and [1, 10]. -/
theorem exit_b1 : (V3 m ρ c main_v37 : FVec Ideal S1x50 .f32)
    = shapeCast S1x50 (m ((c.tc : Thread nD τ).loc main_arg7)) Facts₀.shapeCasts_S50_S1x50 := by
  show StableHlo.after hostOps1 (W2 m ρ c) (Proc.devRef .tc main_v37) = _
  after_results
  rw [mid_arg7 m ρ c]
  rfl

theorem exit_b2 : (V3 m ρ c main_v38 : FVec Ideal S1x10 .f32)
    = shapeCast S1x10 (m ((c.tc : Thread nD τ).loc main_arg9)) Facts₀.shapeCasts_S10_S1x10 := by
  show StableHlo.after hostOps1 (W2 m ρ c) (Proc.devRef .tc main_v38) = _
  after_results
  rw [mid_arg9 m ρ c]
  rfl

/-! ## The two results, at the end of the run -/

/-- The embedding is not touched after its kernel: it ends as the reference's embedding. -/
theorem result_emb : (W4 m ρ c (Proc.devRef .tc main_v23) : FVec Ideal S50000x128 .f32)
    = Cert.ReferenceIdeal.Read.val_main_v27 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
by
  refine (W4_of_ne m ρ c main_v23 (by decide)).trans (Eq.trans ?_ (emb_value m ρ c))
  show StableHlo.after hostOps1 (W2 m ρ c) (Proc.devRef .tc main_v23) = W2 m ρ c (Proc.devRef .tc main_v23)
  after_results

/-- The log-probabilities end as the reference's. -/
theorem result_head : (W4 m ρ c (Proc.devRef .tc main_v39) : FVec Ideal S500x10 .f32)
    = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 5).trans ((head_region (V3 m ρ) c _ _ (exit_b1 m ρ c) (exit_b2 m ρ c)).trans ?_)
  rw [exit_pool m ρ c, exit_arg6 m ρ c, exit_arg8 m ρ c]
  exact head_ref _ _ _ _ _ _ _ _ _ _

end Cert.Bridge

end
-- ==== Proof.lean ====
/-
  A graph network layer and its head, a tiled kernel against plain array code, over the extended reals.

  Both programs aggregate neighbour features over the edge list (a gather, two scatter-adds, a division by the
  clipped degree), take the aggregate A and the features X through one dense layer
      emb = (A · Wn + X · Ws) + b,
  pool max(emb, 0) over the graphs (two more scatter-adds and a division), and finish with a two-layer perceptron
  and a row-wise log-softmax. The irregular stages are the same host operations in both programs. The kernel
  computes the dense layer in ten blocks of 5000 rows — a row block of the product is the product of the row
  block — and the head in one block holding all 500 graphs; there each operation is the reference's own, so
  the two results agree entry by entry with no law of arithmetic beyond reading both sides at an index. The
  precondition (finite inputs) is not used.
-/
import proofs.«159233_j36137854828757_1_alg».proof.Defs
import proofs.«159233_j36137854828757_1_alg».proof.Proof.Gen.Kernel
import proofs.«159233_j36137854828757_1_alg».proof.Proof.Gen.Kernel.Frame
import proofs.«159233_j36137854828757_1_alg».proof.Proof.Gen.KernelIdeal
import proofs.«159233_j36137854828757_1_alg».proof.Proof.Gen.KernelIdeal.Frame
import proofs.«159233_j36137854828757_1_alg».proof.Proof.Gen.ReferenceIdeal
import proofs.«159233_j36137854828757_1_alg».proof.Proof.Gen.Pre_finite_inputs
import proofs.«159233_j36137854828757_1_alg».proof.Proof.Gen.ReferenceIdeal.Run
import proofs.«159233_j36137854828757_1_alg».proof.Proof.Gen.ReferenceIdeal.Read
import proofs.«159233_j36137854828757_1_alg».proof.Proof.KernelRun
import proofs.«159233_j36137854828757_1_alg».proof.Proof.HostSide
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Over the extended reals both programs end with the embedding (A · Wn + X · Ws) + b of the same aggregate A and
    with the same log-softmax head of the same pooled embeddings: the kernel's two results are read off its run
    as the reference's own stages of the kernel's arguments, and the reference's run states those stages of its
    arguments, which agree with the kernel's. -/
theorem algebraic : Cert.algebraic_KernelIdeal_ReferenceIdeal := by
  intro m ρ m' ρ' _ hagree
  refine ⟨fun c => Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Bridge.result_emb m ρ c), (h c).2.1.trans (Cert.Bridge.result_head m ρ c), (h c).2.2⟩)
      (Cert.Bridge.run_named m ρ)
  · refine (θ_run Cert.ReferenceIdeal.defs _ _).mono (fun r h c => ⟨?_, ?_, (h c).2.2⟩)
      (Cert.ReferenceIdeal.Value.run (F := Ideal) m' ρ')
    · obtain ⟨e0, e1, e2, e3, e4, e5, e6, e7, e8, e9⟩ := hagree c
      rw [(h c).1, Cert.ReferenceIdeal.Read.val_main_v27_eq, e0, e1, e3, e4, e5]
    · obtain ⟨e0, e1, e2, e3, e4, e5, e6, e7, e8, e9⟩ := hagree c
      rw [(h c).2.1, Cert.ReferenceIdeal.Read.val_main_v49_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
